-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S5000 : Shape := ⟨1, ![5000]⟩
abbrev S5000x1 : Shape := ⟨2, ![5000, 1]⟩

abbrev nBuf : Space → Nat
  | .hbm => 91
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x32, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .i1⟩
  | 89 => ⟨S_, .f32⟩
  | 90 => ⟨S_, .f32⟩
  | 91 => ⟨S100000, .f32⟩
  | 92 => ⟨S100000, .f32⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x32, .f32⟩
  | 126 => ⟨S1700000x1, .f32⟩
  | 127 => ⟨S1700000x32, .f32⟩
  | _ => ⟨S100000x128, .f32⟩

abbrev hbmTy0_1 (i : Nat) : BufTy := match i % 128 with
  | 0 => ⟨S1700000x32, .f32⟩
  | 1 => ⟨S_, .f32⟩
  | 2 => ⟨S100000x32, .f32⟩
  | 3 => ⟨S1700000x1, .i32⟩
  | 4 => ⟨S100000x32, .f32⟩
  | 5 => ⟨S1x32, .f32⟩
  | 6 => ⟨S100000x32, .f32⟩
  | 7 => ⟨S100000x32, .f32⟩
  | 8 => ⟨S_, .f32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x32, .f32⟩
  | 15 => ⟨S100000x32, .f32⟩
  | 16 => ⟨S100000x32, .f32⟩
  | 17 => ⟨S_, .f32⟩
  | 18 => ⟨S100000, .f32⟩
  | 19 => ⟨S100000x1, .f32⟩
  | 20 => ⟨S100000x1, .f32⟩
  | 21 => ⟨S100000x32, .f32⟩
  | 22 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call2_cst : Ref sig .tc := ⟨.hbm, 73, rfl⟩
abbrev main_call2_v0 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_call3_v0 : Ref sig .tc := ⟨.hbm, 90, rfl⟩
abbrev main_call3_v1 : Ref sig .tc := ⟨.hbm, 91, rfl⟩
abbrev main_v60 : Ref sig .tc := ⟨.hbm, 92, rfl⟩
abbrev main_v61 : Ref sig .tc := ⟨.hbm, 93, rfl⟩
abbrev main_cst_16 : Ref sig .tc := ⟨.hbm, 94, rfl⟩
abbrev main_call4_v0 : Ref sig .tc := ⟨.hbm, 95, rfl⟩
abbrev main_call4_v1 : Ref sig .tc := ⟨.hbm, 96, rfl⟩
abbrev main_v62 : Ref sig .tc := ⟨.hbm, 97, rfl⟩
abbrev main_c_17 : Ref sig .tc := ⟨.hbm, 98, rfl⟩
abbrev main_v63 : Ref sig .tc := ⟨.hbm, 99, rfl⟩
abbrev main_v64 : Ref sig .tc := ⟨.hbm, 100, rfl⟩
abbrev main_c_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_c_20 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_21 : Ref sig .tc := ⟨.hbm, 117, rfl⟩
abbrev main_v78 : Ref sig .tc := ⟨.hbm, 118, rfl⟩
abbrev main_v79 : Ref sig .tc := ⟨.hbm, 119, rfl⟩
abbrev main_c_22 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_23 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_call5_cst : Ref sig .tc := ⟨.hbm, 136, rfl⟩
abbrev main_call5_v0 : Ref sig .tc := ⟨.hbm, 137, rfl⟩
abbrev main_call5_cst_0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_v6 : Ref sig .tc := ⟨.hbm, 144, rfl⟩
abbrev main_call5_cst_1 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_call5_v10 : Ref sig .tc := ⟨.hbm, 149, rfl⟩
abbrev main_v94 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.HostChains.lean ====
/-
  The host stretches of the graph convolution as named functions, for any float instance.  Both programs apply the
  SAME host operations between their dense stages, so these are carried as opaque functions and never opened:
    * `ends a e`    : row `a` of the [2, E] edge list (E = 1600000) followed by the N = 100000 self loops 0 … N-1,
                      a vector of E' = 1700000 node numbers (a = 0: the edges' targets, a = 1: their sources);
    * `deg r`       : how many of the E' entries of `r` name each node (a scatter-add of ones into zeros);
    * `dinv r`      : deg^(-1/2) where deg > 0, else 0;
    * `wrap v`      : a vector of node numbers as the [E', 1] index column a lookup x[v] takes: negative entries
                      shifted up by N;
    * `norm r cl`   : the symmetric normalisation dinv[r] · dinv[cl], one factor per edge;
    * `agg64 r cl nr h`, `agg32 r cl nr h` : the aggregation  out[n, :] = Σ_{edges e with r e = n} nr e · h[cl e, :]
                      (gather the source rows, scale by the edge's factor, scatter-add into the target rows),
                      for rows of 64 and of 32 columns.
-/
import proofs.«153137_j63273458205287_1_alg».proof.KernelIdeal

noncomputable section

namespace Cert.Gcn.Chain

open Cert.KernelIdeal Idealize.ShloMosaic

variable {F : FTy → Type} [FloatOps F] [Facts]

open Facts₀ Facts

/-- Row 0 of the edge list, then the self loops. -/
def ends0 (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list, then the self loops. -/
def ends1 (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The number of entries of `r` naming each node. -/
def deg (r : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 r) (broadcastInDim S1700000 ![] bcast_S_S1700000 (constant S_ .f32 0x3F800000#32))

/-- deg^(-1/2) where deg > 0, else 0. -/
def dinv (r : (⟨S1700000, .i32⟩ : BufTy).Contents (Elt F)) : (⟨S100000, .f32⟩ : BufTy).Contents (Elt F) :=
  select (cmpf (F := F) .ogt (deg r) (broadcastInDim S100000 ![] bcast_S_S100000 (constant S_ .f32 0x00000000#32))) (Host.rsqrt (select (cmpf (F := F) .ogt (deg r) (broadcastInDim S100000 ![] bcast_S_S100000 (constant S_ .f32 0x00000000#32))) (deg r) (broadcastInDim S100000 ![] bcast_S_S100000 (id (constant S_ .f32 0x3F800000#32))))) (broadcastInDim S100000 ![] bcast_S_S100000 (id (constant S_ .f32 0x00000000#32)))

/-- A vector of node numbers as an index column: negative entries shifted up by N. -/
def wrap (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The symmetric normalisation, one factor per edge. -/
def norm (r cl : (⟨S1700000, .i32⟩ : BufTy).Contents (Elt F)) : (⟨S1700000, .f32⟩ : BufTy).Contents (Elt F) :=
  mulf (Host.gather gather_S100000_S1700000x1_S1700000_n_0_n_n_0_1_1 (dinv r) (wrap r)) (Host.gather gather_S100000_S1700000x1_S1700000_n_0_n_n_0_1_1 (dinv r) (wrap cl))

/-- Aggregation of rows of 64 columns along the edges. -/
def agg64 (r cl : (⟨S1700000, .i32⟩ : BufTy).Contents (Elt F)) (nr : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 r) (mulf (Host.gather gather_S100000x64_S1700000x1_S1700000x64_1_0_n_n_0_1_164 h (wrap cl)) (broadcastInDim S1700000x64 ![0, 1] bcast_S1700000x1_S1700000x64_0_1 (broadcastInDim S1700000x1 ![0] bcast_S1700000_S1700000x1_0 nr)))

/-- Aggregation of rows of 32 columns along the edges. -/
def agg32 (r cl : (⟨S1700000, .i32⟩ : BufTy).Contents (Elt F)) (nr : (⟨S1700000, .f32⟩ : BufTy).Contents (Elt F))
    (h : (⟨S100000x32, .f32⟩ : BufTy).Contents (Elt F)) : (⟨S100000x32, .f32⟩ : BufTy).Contents (Elt F) :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 r) (mulf (Host.gather gather_S100000x32_S1700000x1_S1700000x32_1_0_n_n_0_1_132 h (wrap cl)) (broadcastInDim S1700000x32 ![0, 1] bcast_S1700000x1_S1700000x32_0_1 (broadcastInDim S1700000x1 ![0] bcast_S1700000_S1700000x1_0 nr)))

end Cert.Gcn.Chain

end
-- ==== Proof.KernelPrefix.lean ====
/-
  The idealized kernel's host operations before its first dense stage, read back: from any buffer contents X, after
  those 47 operations the buffers of the edge ends hold `ends0` / `ends1` of the edge list, the buffer of the edge
  factors holds `norm` of the two, and no argument buffer has changed.
-/
import proofs.«153137_j63273458205287_1_alg».proof.Proof.Gen.KernelIdeal.Frame
import proofs.«153137_j63273458205287_1_alg».proof.Proof.HostChains
import Idealize.ShloMosaic.Lib.StableHlo.Run
import Idealize.ShloMosaic.PureOps.Ideal.Laws

noncomputable section

namespace Cert.Gcn.KernelChain

open Cert.KernelIdeal Cert.KernelIdeal.Gen Idealize.ShloMosaic Idealize.ShloMosaic.TcCoe Idealize.SL.Sem Idealize.ShloMosaic.StableHlo
open Cert.Gcn.Chain

/-- Running two lines of host operations one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The first choice "deg where deg > 0, else 1", over plain references. -/
abbrev where0 : List (HloOp τ sig (Elt Ideal)) :=
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v14 main_v10 main_call0_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]

/-- The second choice "deg^(-1/2) where deg > 0, else 0", over plain references. -/
abbrev where1 : List (HloOp τ sig (Elt Ideal)) :=
  [ StableHlo.unary main_cst_4 main_call1_v0 (id : (⟨S_, .f32⟩ : BufTy).Contents (Elt Ideal) → (⟨S_, .f32⟩ : BufTy).Contents (Elt Ideal)),
    StableHlo.unary main_call1_v0 main_call1_v1 (broadcastInDim S100000 ![] bcast_S_S100000 : (⟨S_, .f32⟩ : BufTy).Contents (Elt Ideal) → (⟨S100000, .f32⟩ : BufTy).Contents (Elt Ideal)),
    StableHlo.ternary main_v12 main_v16 main_call1_v1 main_v17 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]

/-- The called choice's three operations are those plain ones (its typed references transport along `rfl`). -/
theorem where0_eq : (hostOps0_1 : List (HloOp τ sig (Elt Ideal))) = where0 := by
  refine congrArg₂ List.cons rfl ?_
  refine congrArg₂ List.cons rfl ?_
  refine congrArg₂ List.cons rfl ?_
  rfl

theorem where1_eq : (hostOps0_3 : List (HloOp τ sig (Elt Ideal))) = where1 := by
  refine congrArg₂ List.cons rfl ?_
  refine congrArg₂ List.cons rfl ?_
  refine congrArg₂ List.cons rfl ?_
  rfl

/-- The 47 host operations before the first dense stage, in order. -/
abbrev prefixOps : List (HloOp τ sig (Elt Ideal)) :=
  hostOps0 ++ (where0 ++ (hostOps0_2 ++ (where1 ++ hostOps0_4)))

variable (X : Valuation τ sig (Elt Ideal))

set_option maxHeartbeats 8000000 in
/-- The edges' first ends. -/
theorem prefix_v3 : after prefixOps X (Proc.devRef .tc main_v3) = ends0 (F := Ideal) (X (Proc.devRef .tc main_arg1)) := by
  simp only [prefixOps, hostOps0, where0, hostOps0_2, where1, hostOps0_4, List.cons_append, List.nil_append]
  after_results_simp
  rfl

set_option maxHeartbeats 8000000 in
/-- The edges' second ends. -/
theorem prefix_v6 : after prefixOps X (Proc.devRef .tc main_v6) = ends1 (F := Ideal) (X (Proc.devRef .tc main_arg1)) := by
  simp only [prefixOps, hostOps0, where0, hostOps0_2, where1, hostOps0_4, List.cons_append, List.nil_append]
  after_results_simp
  rfl

set_option maxHeartbeats 16000000 in
/-- The edge factors. -/
theorem prefix_v32 : after prefixOps X (Proc.devRef .tc main_v32)
    = norm (F := Ideal) (ends0 (X (Proc.devRef .tc main_arg1))) (ends1 (X (Proc.devRef .tc main_arg1))) := by
  simp only [prefixOps, hostOps0, where0, hostOps0_2, where1, hostOps0_4, List.cons_append, List.nil_append]
  after_results_simp
  rfl

set_option maxHeartbeats 8000000 in
/-- Argument 0 is not written. -/
theorem prefix_arg0 : after prefixOps X (Proc.devRef .tc main_arg0) = X (Proc.devRef .tc main_arg0) := by
  simp only [prefixOps, hostOps0, where0, hostOps0_2, where1, hostOps0_4, List.cons_append, List.nil_append]
  after_results_simp

set_option maxHeartbeats 8000000 in
/-- Argument 2 is not written. -/
theorem prefix_arg2 : after prefixOps X (Proc.devRef .tc main_arg2) = X (Proc.devRef .tc main_arg2) := by
  simp only [prefixOps, hostOps0, where0, hostOps0_2, where1, hostOps0_4, List.cons_append, List.nil_append]
  after_results_simp

set_option maxHeartbeats 8000000 in
/-- Argument 3 is not written. -/
theorem prefix_arg3 : after prefixOps X (Proc.devRef .tc main_arg3) = X (Proc.devRef .tc main_arg3) := by
  simp only [prefixOps, hostOps0, where0, hostOps0_2, where1, hostOps0_4, List.cons_append, List.nil_append]
  after_results_simp

set_option maxHeartbeats 8000000 in
/-- Argument 4 is not written. -/
theorem prefix_arg4 : after prefixOps X (Proc.devRef .tc main_arg4) = X (Proc.devRef .tc main_arg4) := by
  simp only [prefixOps, hostOps0, where0, hostOps0_2, where1, hostOps0_4, List.cons_append, List.nil_append]
  after_results_simp

set_option maxHeartbeats 8000000 in
/-- Argument 5 is not written. -/
theorem prefix_arg5 : after prefixOps X (Proc.devRef .tc main_arg5) = X (Proc.devRef .tc main_arg5) := by
  simp only [prefixOps, hostOps0, where0, hostOps0_2, where1, hostOps0_4, List.cons_append, List.nil_append]
  after_results_simp

variable (m : (ℓ : Loc nD τ sig) → Buf (Elt Ideal) ℓ) (ρ : Dev nD → PrngReg)

/-- The buffer contents when the first dense stage is entered are the fold of those 47 operations over the launch
    contents. -/
theorem W5_flat (c : Dev nD) : W5 m ρ c = after prefixOps (W0 m ρ c) := by
  show after hostOps0_4 (after hostOps0_3 (after hostOps0_2 (after hostOps0_1 (after hostOps0 (W0 m ρ c))))) = _
  rw [where0_eq, where1_eq]
  simp only [prefixOps, after_append]

end Cert.Gcn.KernelChain

end
-- ==== Proof.Spec.lean ====
/-
  The four dense stages of a two-layer graph convolution as functions of whole arrays, index by index, over the
  extended reals.  With N = 100000 nodes:
    * `dense1 x w`         : (x · w)[r, j] = ∑ₖ x[r, k] · w[k, j]            ([N,128] · [128,64] → [N,64]);
    * `biasRelu a b`       : max (a[r, j] + b[0, j]) 0                        ([N,64], the bias as a [1,64] row);
    * `dense2 h w`         : (h · w)[r, j] = ∑ₖ h[r, k] · w[k, j]            ([N,64] · [64,32] → [N,32]);
    * `biasLogSoftmax a b` : with the row of logits l k = a[r, k] + b[0, k] and its maximum M (the fold of max
                              from -∞ over the 32 columns),  (l j - M) - log (∑ₖ exp (l k - M))   ([N,32], bias [1,32]).
  Between them a graph convolution aggregates rows along the edges; those host stretches are the same operations
  in both programs and are carried as opaque functions elsewhere, so nothing here mentions the edges.
-/
import Idealize.ShloMosaic.PureOps.Ideal
import Idealize.ShloMosaic.Lib.ValueIdx

noncomputable section

open scoped BigOperators

namespace Cert.Gcn

open Idealize.ShloMosaic Idealize.ShloMosaic.ValueIdx

/-- node features [N, 128] -/
abbrev SX : Shape := ⟨2, ![100000, 128]⟩
/-- first weight [128, 64] -/
abbrev SW1 : Shape := ⟨2, ![128, 64]⟩
/-- hidden rows [N, 64] -/
abbrev SH1 : Shape := ⟨2, ![100000, 64]⟩
/-- first bias as a row [1, 64] -/
abbrev SB1 : Shape := ⟨2, ![1, 64]⟩
/-- second weight [64, 32] -/
abbrev SW2 : Shape := ⟨2, ![64, 32]⟩
/-- output rows [N, 32] -/
abbrev SH2 : Shape := ⟨2, ![100000, 32]⟩
/-- second bias as a row [1, 32] -/
abbrev SB2 : Shape := ⟨2, ![1, 32]⟩

/-- The row coordinate of an index of an [N, c] array, as a `Fin 100000`. -/
abbrev rowOf {c : Nat} (i : (⟨2, ![100000, c]⟩ : Shape).Idx) : Fin 100000 := ⟨(i 0).val, (i 0).isLt⟩
/-- The column coordinate of an index of an [n, c] array, as a `Fin c`. -/
abbrev colOf {n c : Nat} (i : (⟨2, ![n, c]⟩ : Shape).Idx) : Fin c := ⟨(i 1).val, (i 1).isLt⟩

/-- (x · w)[r, j] = ∑ₖ x[r, k] · w[k, j], 128 terms. -/
def dense1 (x : SX.Idx → EReal) (w : SW1.Idx → EReal) : SH1.Idx → EReal :=
  fun i => ∑ k : Fin 128, x (ix2 (rowOf i) k) * w (ix2 k (colOf i))

/-- max (a[r, j] + b[0, j]) 0. -/
def biasRelu (a : SH1.Idx → EReal) (b : SB1.Idx → EReal) : SH1.Idx → EReal :=
  fun i => max (a i + b (ix2 (0 : Fin 1) (colOf i))) 0

/-- (h · w)[r, j] = ∑ₖ h[r, k] · w[k, j], 64 terms. -/
def dense2 (h : SH1.Idx → EReal) (w : SW2.Idx → EReal) : SH2.Idx → EReal :=
  fun i => ∑ k : Fin 64, h (ix2 (rowOf i) k) * w (ix2 k (colOf i))

/-- Row r's logits: l k = a[r, k] + b[0, k]. -/
def logits (a : SH2.Idx → EReal) (b : SB2.Idx → EReal) (r : Fin 100000) : Fin 32 → EReal :=
  fun k => a (ix2 r k) + b (ix2 (0 : Fin 1) k)

/-- The maximum of 32 extended reals, as the fold of `max` from -∞. -/
def rowMax (l : Fin 32 → EReal) : EReal := (Finset.univ : Finset (Fin 32)).fold max ⊥ l

/-- log-softmax of one row of logits at column j: (l j - M) - log (∑ₖ exp (l k - M)), M the row's maximum. -/
def logSoftmaxRow (l : Fin 32 → EReal) (j : Fin 32) : EReal :=
  (l j - rowMax l) - Ideal.log (∑ k : Fin 32, Ideal.exp (l k - rowMax l))

/-- log-softmax along the columns of a + b. -/
def biasLogSoftmax (a : SH2.Idx → EReal) (b : SB2.Idx → EReal) : SH2.Idx → EReal :=
  fun i => logSoftmaxRow (logits a b (rowOf i)) (colOf i)

end Cert.Gcn

end
-- ==== Proof.Model.lean ====
/-
  The two-layer graph convolution as ONE function of the six argument arrays over the extended reals: with the
  edge ends r, cl (edge list rows followed by the self loops) and the edge factors nr = norm r cl,
      out = biasLogSoftmax (agg32 r cl nr (dense2 (biasRelu (agg64 r cl nr (dense1 x W1)) b1) W2)) b2,
  the biases read as [1, 64] and [1, 32] rows.  Both programs are proved to end with this array.
-/
import proofs.«153137_j63273458205287_1_alg».proof.Proof.HostChains
import proofs.«153137_j63273458205287_1_alg».proof.Proof.Spec

noncomputable section

namespace Cert.Gcn

open Cert.KernelIdeal Idealize.ShloMosaic Cert.Gcn.Chain

variable [Facts]

open Facts₀ Facts

/-- The network's output as a function of x, the edge list, W1, b1, W2, b2. -/
def gcn (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal)) :
    (⟨S100000x32, .f32⟩ : BufTy).Contents (Elt Ideal) :=
  biasLogSoftmax
    (agg32 (ends0 e) (ends1 e) (norm (ends0 e) (ends1 e))
      (dense2 (biasRelu (agg64 (ends0 e) (ends1 e) (norm (ends0 e) (ends1 e)) (dense1 x w1)) (shapeCast S1x64 b1 shapeCasts_S64_S1x64)) w2))
    (shapeCast S1x32 b2 shapeCasts_S32_S1x32)

end Cert.Gcn

end
-- ==== Proof.Region0.lean ====
/-
  The first dense stage, x · W1, as the kernel computes it: the grid has 20 points, point t holds rows
  5000·t … 5000·t + 4999 of x (all 128 columns), the whole of W1 (128 × 64), and writes rows 5000·t … 5000·t + 4999
  of the product (all 64 columns).  Over the extended reals the narrowing of the two blocks is the identity and the
  block product into a zero accumulator is, at row p and column q of the block, ∑ₖ x[5000·t + p, k] · W1[k, q] over
  the 128 values of k.  The 20 row blocks are disjoint and together are all 100000 rows, so the array written is
  (x · W1)[r, j] = ∑ₖ x[r, k] · W1[k, j] at every index.
-/
import proofs.«153137_j63273458205287_1_alg».proof.Proof.Gen.KernelIdeal.Frame
import proofs.«153137_j63273458205287_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The origin of a block, as a constant function. -/
theorem origin_zero : (![0, 0] : Fin 2 → Nat) = fun _ => 0 := funext fun a => by fin_cases a <;> rfl

/-- The block product's dimension numbers: contract axis 1 of the left block with axis 0 of the right block. -/
abbrev D0 : DotDims S5000x128 S128x64 S5000x64 := dot_S5000x128_S128x64_S5000x64_1_0_0_1_n_n

/-- The left operand's row is the result's row. -/
theorem lhs_row (j : S5000x64.Idx) (q : D0.contr.Idx) : (D0.lhsIdx j q 0).val = (j 0).val := by
  unfold DotDims.lhsIdx
  rw [dif_neg (show ¬(0 : Fin S5000x128.rank) ∈ D0.lhsBatch by decide), dif_pos (show (0 : Fin S5000x128.rank) ∈ D0.lhsNonContracting by decide)]
  rfl
/-- The left operand's column is the contraction coordinate. -/
theorem lhs_col (j : S5000x64.Idx) (q : D0.contr.Idx) : (D0.lhsIdx j q 1).val = (q ⟨0, by decide⟩).val :=
  D0.lhsIdx_val_of_single rfl j q
/-- The right operand's row is the contraction coordinate. -/
theorem rhs_row (j : S5000x64.Idx) (q : D0.contr.Idx) : (D0.rhsIdx j q 0).val = (q ⟨0, by decide⟩).val :=
  D0.rhsIdx_val_of_single rfl j q
/-- The right operand's column is the result's column. -/
theorem rhs_col (j : S5000x64.Idx) (q : D0.contr.Idx) : (D0.rhsIdx j q 1).val = (j 1).val := by
  unfold DotDims.rhsIdx
  rw [dif_neg (show ¬(1 : Fin S128x64.rank) ∈ D0.rhsBatch by decide), dif_pos (show (1 : Fin S128x64.rank) ∈ D0.rhsNonContracting by decide)]
  rfl

/-- The body's arithmetic at row p, column q of a block: the narrowings are the identity, the accumulator is zero,
    and the contraction's one axis is re-indexed by its coordinate k. -/
theorem pay_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  refine (Ideal.matmul_constant_zero_apply D0 none (truncf FTy.bf16 x0 bitsLt_bf16_f32) (truncf FTy.bf16 x1 bitsLt_bf16_f32) (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs_row _ _
    | ⟨1, _⟩ => exact (lhs_col _ _).trans hk)
  have er : D0.rhsIdx (ix2 p q) ((contrEquiv1 D0 128 rfl rfl).symm k) = ix2 k q := funext fun a => Fin.ext (by
    match a with
    | ⟨0, _⟩ => exact (rhs_row _ _).trans hk
    | ⟨1, _⟩ => exact rhs_col _ _)
  show x0 (D0.lhsIdx (ix2 p q) ((contrEquiv1 D0 128 rfl rfl).symm k)) * x1 (D0.rhsIdx (ix2 p q) ((contrEquiv1 D0 128 rfl rfl).symm k)) = _
  rw [el, er]

/-- Where the three blocks of point t sit: the row block of x and the row block of the product have the same block
    row, which is t; every other block coordinate is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of x · W1: row p of the block is row 5000·t + p of both x and the product,
    and the columns of W1 and of the product agree. -/
theorem flushed_eq (c : Dev nD) (t : Fin cfg0.N) :
    (dat0 (F := Ideal) V c).flushed 2 t = ((cfg0.win 2).blk t).view.read (Elt Ideal) (Cert.Gcn.dense1 (V c main_arg0) (V c main_arg2)) := by
  show (cfg0.win 2).cut (grid0.coords t) ((dat0 (F := Ideal) V c).after 2 t) = _
  rw [after0_2]
  unfold out0_2
  rw [View.canon_unit_zero origin_zero]
  simp only [View.ld_unit_zero (S := S5000x128) origin_zero, View.ld_unit_zero (S := S128x64) origin_zero]
  obtain ⟨e0, e1, e2, e3, e4, e5⟩ := index_facts t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q) = Cert.Gcn.dense1 (V c main_arg0) (V c main_arg2) (((cfg0.win 2).blk t).view.emb (ix2 p q))
  refine (pay_apply (iblk0 V c 0 t) (iblk0 V c 1 t) p q).trans ?_
  unfold Cert.Gcn.dense1
  refine Finset.sum_congr rfl fun k _ => ?_
  have h0 : ((cfg0.win 0).blk t).view.emb (ix2 p k) = ix2 (rowOf (((cfg0.win 2).blk t).view.emb (ix2 p q))) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k (colOf (((cfg0.win 2).blk t).view.emb (ix2 p q))) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have hl : iblk0 V c 0 t (ix2 p k) = V c main_arg0 (ix2 (rowOf (((cfg0.win 2).blk t).view.emb (ix2 p q))) k) := by
    show V c main_arg0 (((cfg0.win 0).blk t).view.emb (ix2 p k)) = _
    rw [h0]
  have hr : iblk0 V c 1 t (ix2 k q) = V c main_arg2 (ix2 k (colOf (((cfg0.win 2).blk t).view.emb (ix2 p q)))) := by
    show V c main_arg2 (((cfg0.win 1).blk t).view.emb (ix2 k q)) = _
    rw [h1]
  rw [hl, hr]

/-- An index of the product is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- Every index is in some point's block: row r is in block r / 5000, and 20 · 5000 = 100000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk]
  obtain ⟨e0, e1, e2, e3, e4, e5⟩ := index_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-- The array the region leaves is x · W1 of the arrays it found. -/
theorem final (c : Dev nD) : (dat0 (F := Ideal) V c).arrAt 2 cfg0.N = Cert.Gcn.dense1 (V c main_arg0) (V c main_arg2) :=
  (dat0 (F := Ideal) V c).arrAt_eq_of_cover 2 (Cert.Gcn.dense1 (V c main_arg0) (V c main_arg2)) (fun t _ => flushed_eq V c t) cover

end Cert.Gcn.Region0

end
-- ==== Proof.Region1.lean ====
/-
  Bias and rectification, block by block.

  The stage works on twenty blocks of 5000 consecutive rows of an [100000, 64] array a, together with the whole
  bias row b of shape [1, 64].  On the block of rows 5000·t … 5000·t + 4999 it computes, entry by entry,
      max (a[5000·t + p, q] + b[0, q]) 0        (p < 5000, q < 64),
  the bias row being repeated down the 5000 rows of the block, and writes the result back to the same rows of the
  output.  Row r of the output lies in block r / 5000 and in no other, and the twenty blocks fill the rows
  0 … 99999, so the output array is  max (a[r, q] + b[0, q]) 0  at every index: `Cert.Gcn.biasRelu a b`.

  The only laws used are that a sum and a maximum of arrays are taken entry by entry, that repeating a [1, 64] row
  along the rows reads the row at column q, and that the constant whose word is all zeros is the number 0.
-/
import proofs.«153137_j63273458205287_1_alg».proof.Proof.Gen.KernelIdeal.Frame
import proofs.«153137_j63273458205287_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets (0, 0) of a block read or written from its corner. -/
theorem zero_offsets : (![0, 0] : Fin 2 → Nat) = fun _ => 0 := funext fun a => by fin_cases a <;> rfl

/-- The body's arithmetic at entry (p, q) of a block: the block's entry plus the bias row's entry in column q,
    then the maximum with 0.  (Casting a shape to itself changes nothing; the [1, 64] row repeated to [5000, 64]
    reads the row at column q; the zero word is the number 0.) -/
theorem payload_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) 0 := by
  unfold k1_pay1
  simp only [shapeCast_self]
  rw [maximumf_apply, addf_apply, broadcast_apply, broadcastTo_1b_ab_apply]
  show max _ (Ideal.ofBits .f32 0x00000000#32) = _
  rw [Ideal.ofBits_zero_f32]

/-- Where the three blocks of grid point t sit: the input rows' block and the output rows' block have the same
    block index t along the rows and 0 along the columns; the bias row's block is always the whole row. -/
theorem index_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- If a block x0 and a row x1 agree, at entry (p, q), with arrays a and b at an index i of the whole array — x0's
    entry is a[i] and x1's entry in column q is b[0, column of i] — then the body's result at (p, q) is
    max (a[i] + b[0, column of i]) 0. -/
theorem point_eq (x0 : Vec Ideal S5000x64 .f32) (x1 : Vec Ideal S1x64 .f32)
    (a : SH1.Idx → EReal) (b : SB1.Idx → EReal) (p : Fin 5000) (q : Fin 64) (i : SH1.Idx)
    (h0 : x0 (ix2 p q) = a i) (h1 : x1 (ix2 (0 : Fin 1) q) = b (ix2 (0 : Fin 1) (colOf i))) :
    k1_pay1 x0 x1 (ix2 p q) = biasRelu a b i := by
  rw [payload_apply, h0, h1]; rfl

/-- What grid point t writes back is the block of rows 5000·t … 5000·t + 4999 of `biasRelu a b`: entry (p, q) of the
    input block is a[5000·t + p, q], which is also where entry (p, q) of the output block goes, and entry (0, q) of
    the bias block is b[0, q].  (A block's coordinate on an axis is block index × block size + the coordinate inside
    the block.) -/
theorem flushed_eq (c : Dev nD) (t : Fin cfg1.N) :
    (dat1 (F := Ideal) V c).flushed 2 t
      = ((cfg1.win 2).blk t).view.read (Elt Ideal) (Cert.Gcn.biasRelu (V c main_v46) (V c main_v47)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0, e1, e2, e3, e4, e5⟩ := index_facts t
  funext j
  obtain ⟨p, q, rfl⟩ : ∃ (p : Fin 5000) (q : Fin 64), j = ix2 p q := ⟨j 0, j 1, eq_ix2 j⟩
  show k1_pay1 (iblk1 V c 0 t) (iblk1 V c 1 t) (ix2 p q)
      = biasRelu (V c main_v46) (V c main_v47) (((cfg1.win 2).blk t).view.emb (ix2 p q))
  refine point_eq _ _ _ _ p q _ ?_ ?_
  · show V c main_v46 (((cfg1.win 0).blk t).view.emb (ix2 p q)) = V c main_v46 (((cfg1.win 2).blk t).view.emb (ix2 p q))
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  · show V c main_v47 (((cfg1.win 1).blk t).view.emb (ix2 (0 : Fin 1) q))
        = V c main_v47 (ix2 (0 : Fin 1) (colOf (((cfg1.win 2).blk t).view.emb (ix2 p q))))
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega

/-- An index of the output array is in point t's block exactly when, on each axis, its coordinate is in the
    block's range: block index × block size up to (not including) that plus the block size. -/
theorem mem_blk (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v48).slice (win1_2.rect t)).set ↔ _
  rw [View.set_slice_whole, Rect.mem_set_unit]
  exact Iff.rfl

/-- Every index (r, q) of the output array is in the block of grid point r / 5000, which is written back:
    5000 · (r / 5000) ≤ r < 5000 · (r / 5000) + 5000 and r / 5000 < 20 since r < 100000. -/
theorem cover (i : S100000x64.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) hN.symm⟩, rfl⟩
  obtain ⟨e0, e1, e2, e3, e4, e5⟩ := index_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- After the twenty points the output array holds max (a[r, q] + b[0, q]) 0 at every index: each point writes
    its block of that function, and the blocks cover the array. -/
theorem final (c : Dev nD) :
    (dat1 (F := Ideal) V c).arrAt 2 cfg1.N = Cert.Gcn.biasRelu (V c main_v46) (V c main_v47) :=
  (dat1 V c).arrAt_eq_of_cover 2 (Cert.Gcn.biasRelu (V c main_v46) (V c main_v47))
    (fun t _ => flushed_eq V c t) cover

end Cert.Gcn.Region1

end
-- ==== Proof.Region2.lean ====
/-
  The second dense stage, h · W2, as the kernel computes it: the grid has 20 points, point t holds rows
  5000·t … 5000·t + 4999 of h (all 64 columns), the whole of W2 (64 × 32), and writes rows 5000·t … 5000·t + 4999
  of the product (all 32 columns).  Over the extended reals the reshaping of the row block to its own shape and the
  narrowing of the two blocks are the identity, and the block product into a zero accumulator is, at row p and
  column q of the block, ∑ₖ h[5000·t + p, k] · W2[k, q] over the 64 values of k.  The 20 row blocks are disjoint and
  together are all 100000 rows, so the array written is (h · W2)[r, j] = ∑ₖ h[r, k] · W2[k, j] at every index.
-/
import proofs.«153137_j63273458205287_1_alg».proof.Proof.Gen.KernelIdeal.Frame
import proofs.«153137_j63273458205287_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The origin of a block, as a constant function. -/
theorem origin_zero : (![0, 0] : Fin 2 → Nat) = fun _ => 0 := funext fun a => by fin_cases a <;> rfl

/-- The block product's dimension numbers: contract axis 1 of the left block with axis 0 of the right block. -/
abbrev D2 : DotDims S5000x64 S64x32 S5000x32 := dot_S5000x64_S64x32_S5000x32_1_0_0_1_n_n

/-- The left operand's row is the result's row. -/
theorem lhs_row (j : S5000x32.Idx) (q : D2.contr.Idx) : (D2.lhsIdx j q 0).val = (j 0).val := by
  unfold DotDims.lhsIdx
  rw [dif_neg (show ¬(0 : Fin S5000x64.rank) ∈ D2.lhsBatch by decide), dif_pos (show (0 : Fin S5000x64.rank) ∈ D2.lhsNonContracting by decide)]
  rfl
/-- The left operand's column is the contraction coordinate. -/
theorem lhs_col (j : S5000x32.Idx) (q : D2.contr.Idx) : (D2.lhsIdx j q 1).val = (q ⟨0, by decide⟩).val :=
  D2.lhsIdx_val_of_single rfl j q
/-- The right operand's row is the contraction coordinate. -/
theorem rhs_row (j : S5000x32.Idx) (q : D2.contr.Idx) : (D2.rhsIdx j q 0).val = (q ⟨0, by decide⟩).val :=
  D2.rhsIdx_val_of_single rfl j q
/-- The right operand's column is the result's column. -/
theorem rhs_col (j : S5000x32.Idx) (q : D2.contr.Idx) : (D2.rhsIdx j q 1).val = (j 1).val := by
  unfold DotDims.rhsIdx
  rw [dif_neg (show ¬(1 : Fin S64x32.rank) ∈ D2.rhsBatch by decide), dif_pos (show (1 : Fin S64x32.rank) ∈ D2.rhsNonContracting by decide)]
  rfl

/-- The body's arithmetic at row p, column q of a block: the reshaping and the narrowings are the identity, the accumulator is zero,
    and the contraction's one axis is re-indexed by its coordinate k. -/
theorem pay_apply (x0 : Vec Ideal S5000x64 .f32) (x1 : Vec Ideal S64x32 .f32) (p : Fin 5000) (q : Fin 32) :
    k2_pay1 x0 x1 (ix2 p q) = ∑ k : Fin 64, x0 (ix2 p k) * x1 (ix2 k q) := by
  unfold k2_pay1
  rw [shapeCast_self]
  refine (Ideal.matmul_constant_zero_apply D2 none (truncf FTy.bf16 x0 bitsLt_bf16_f32) (truncf FTy.bf16 x1 bitsLt_bf16_f32) (ix2 p q)).trans ?_
  rw [← Equiv.sum_comp (contrEquiv1 D2 64 rfl rfl).symm]
  refine Finset.sum_congr rfl fun k _ => ?_
  have hk := contrEquiv1_symm_val D2 64 rfl rfl k
  have el : D2.lhsIdx (ix2 p q) ((contrEquiv1 D2 64 rfl rfl).symm k) = ix2 p k := funext fun a => Fin.ext (by
    match a with
    | ⟨0, _⟩ => exact lhs_row _ _
    | ⟨1, _⟩ => exact (lhs_col _ _).trans hk)
  have er : D2.rhsIdx (ix2 p q) ((contrEquiv1 D2 64 rfl rfl).symm k) = ix2 k q := funext fun a => Fin.ext (by
    match a with
    | ⟨0, _⟩ => exact (rhs_row _ _).trans hk
    | ⟨1, _⟩ => exact rhs_col _ _)
  show x0 (D2.lhsIdx (ix2 p q) ((contrEquiv1 D2 64 rfl rfl).symm k)) * x1 (D2.rhsIdx (ix2 p q) ((contrEquiv1 D2 64 rfl rfl).symm k)) = _
  rw [el, er]

/-- Where the three blocks of point t sit: the row block of h and the row block of the product have the same block
    row, which is t; every other block coordinate is 0. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of h · W2: row p of the block is row 5000·t + p of both h and the product,
    and the columns of W2 and of the product agree. -/
theorem flushed_eq (c : Dev nD) (t : Fin cfg2.N) :
    (dat2 (F := Ideal) V c).flushed 2 t = ((cfg2.win 2).blk t).view.read (Elt Ideal) (Cert.Gcn.dense2 (V c main_v48) (V c main_arg4)) := by
  show (cfg2.win 2).cut (grid2.coords t) ((dat2 (F := Ideal) V c).after 2 t) = _
  rw [after2_2]
  unfold out2_2
  rw [View.canon_unit_zero origin_zero]
  simp only [View.ld_unit_zero (S := S5000x64) origin_zero, View.ld_unit_zero (S := S64x32) origin_zero]
  obtain ⟨e0, e1, e2, e3, e4, e5⟩ := index_facts t
  funext j
  obtain ⟨p, q, rfl⟩ : ∃ (p : Fin 5000) (q : Fin 32), j = ix2 p q := ⟨j 0, j 1, eq_ix2 j⟩
  show k2_pay1 (iblk2 V c 0 t) (iblk2 V c 1 t) (ix2 p q) = Cert.Gcn.dense2 (V c main_v48) (V c main_arg4) (((cfg2.win 2).blk t).view.emb (ix2 p q))
  refine (pay_apply (iblk2 V c 0 t) (iblk2 V c 1 t) p q).trans ?_
  unfold Cert.Gcn.dense2
  refine Finset.sum_congr rfl fun k _ => ?_
  have h0 : ((cfg2.win 0).blk t).view.emb (ix2 p k) = ix2 (rowOf (((cfg2.win 2).blk t).view.emb (ix2 p q))) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have h1 : ((cfg2.win 1).blk t).view.emb (ix2 k q) = ix2 k (colOf (((cfg2.win 2).blk t).view.emb (ix2 p q))) := by
    funext a; apply Fin.ext
    match a with
    | ⟨0, _⟩ => show win2_1.index t (0 : Fin 2) * 64 + 1 * k.val = k.val; omega
    | ⟨1, _⟩ => show win2_1.index t (1 : Fin 2) * 32 + 1 * q.val = win2_2.index t (1 : Fin 2) * 32 + 1 * q.val; omega
  have hl : iblk2 V c 0 t (ix2 p k) = V c main_v48 (ix2 (rowOf (((cfg2.win 2).blk t).view.emb (ix2 p q))) k) := by
    show V c main_v48 (((cfg2.win 0).blk t).view.emb (ix2 p k)) = _
    rw [h0]
  have hr : iblk2 V c 1 t (ix2 k q) = V c main_arg4 (ix2 k (colOf (((cfg2.win 2).blk t).view.emb (ix2 p q)))) := by
    show V c main_arg4 (((cfg2.win 1).blk t).view.emb (ix2 k q)) = _
    rw [h1]
  rw [hl, hr]

/-- An index of the product is in point t's block iff each coordinate is in the block's range on its axis. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v49).slice (win2_2.rect t)).set ↔ _
  rw [View.set_slice_whole, Rect.mem_set_unit]
  exact Iff.rfl

/-- Every index is in some point's block: row r is in block r / 5000, and 20 · 5000 = 100000. -/
theorem cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  refine ⟨⟨(i 0).val / 5000, by rw [hN]; omega⟩, flush2_2 _, ?_⟩
  rw [mem_blk]
  obtain ⟨e0, e1, e2, e3, e4, e5⟩ := index_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 32 ≤ (i 1).val ∧ (i 1).val < win2_2.index _ (1 : Fin 2) * 32 + 32; rw [e5]; omega

/-- The array the region leaves is h · W2 of the arrays it found. -/
theorem final (c : Dev nD) : (dat2 (F := Ideal) V c).arrAt 2 cfg2.N = Cert.Gcn.dense2 (V c main_v48) (V c main_arg4) :=
  (dat2 (F := Ideal) V c).arrAt_eq_of_cover 2 (Cert.Gcn.dense2 (V c main_v48) (V c main_arg4)) (fun t _ => flushed_eq V c t) cover

end Cert.Gcn.Region2

end
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibColumnBroadcast.lean ====
/-
  One column broadcast across many.

  An `[a, 1]` column broadcast to an `[a, b]` matrix reads, at `(p, c)`, the column's entry of row `p`: the unit axis
  of the operand is read at `0`, the other at the result's own coordinate. Any extents, any element type. (Its mirror
  image, one row broadcast down many, is the library's `broadcastTo_1b_ab_apply`.)
-/
import Idealize.ShloMosaic.Lib.ValueLayout
import Idealize.ShloMosaic.Lib.ValueIdx
import Idealize.ShloMosaic.Lib.Pipeline.Value

namespace Cert.ColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnBroadcast
-- ==== Proof.Region3.lean ====
/-
  The last dense stage of the two-layer graph convolution, computed block by block: bias plus log-softmax along
  the 32 columns.

  The [100000, 32] array of aggregated rows is cut into 20 row blocks of 5000 rows; block t is rows
  5000 t … 5000 t + 4999, all 32 columns.  On one block, with the bias as a [1, 32] row, the body forms the logits
  l k = a[p, k] + b[0, k] of each row p, their maximum M as a reduction by max from -∞ along the columns, the
  differences l k - M, the sum of their exponentials along the columns, and returns (l q - M) - log (∑ₖ exp (l k - M)).
  A row's logits, its maximum and its sum involve that row only, so the result on a block is the block of the
  whole-array function `biasLogSoftmax`: row p of block t is row 5000 t + p of the array, and a reduction of a row
  of the block is the same reduction of that row of the array.  The 20 blocks cover every row (row r lies in block
  r / 5000), so the array the blocks are written back to ends holding `biasLogSoftmax` of the two inputs.
-/
import proofs.«153137_j63273458205287_1_alg».proof.Proof.Gen.KernelIdeal.Frame
import proofs.«153137_j63273458205287_1_alg».proof.Proof.Spec
import proofs.«153137_j63273458205287_1_alg».proof.Proof.LibKeepdimsSum
import proofs.«153137_j63273458205287_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

namespace Cert.Gcn.Region3

/-- The word 0xFF800000 denotes -∞. -/
theorem ofBits_negInf : Ideal.ofBits .f32 0xFF800000#32 = (⊥ : EReal) := by
  simp [Ideal.ofBits, Ideal.ieee]

/-- The block's logits in row p: the block's entry plus the bias row's. -/
def blockLogits (x0 : Vec Ideal S5000x32 .f32) (x1 : Vec Ideal S1x32 .f32) (p : Fin 5000) : Fin 32 → EReal :=
  fun k => x0 (ix2 p k) + x1 (ix2 (0 : Fin 1) k)

/-- The biased block at (p, k) is the logit l k of row p. -/
theorem biased_apply (x0 : Vec Ideal S5000x32 .f32) (x1 : Vec Ideal S1x32 .f32) (p : Fin 5000) (k : Fin 32) :
    addf (F := Ideal) (φ := .f32) (shapeCast S5000x32 x0 shapeCasts_S5000x32_S5000x32)
      (broadcastTo S5000x32 (shapeCast S1x32 x1 shapeCasts_S1x32_S1x32) broadcasts_S1x32_S5000x32) (ix2 p k)
      = blockLogits x0 x1 p k := by
  rw [addf_apply, shapeCast_self, shapeCast_self, broadcastTo_1b_ab_apply]
  rfl

/-- The row maximum, kept as a column and broadcast back, at (p, q): the fold of max from -∞ over row p. -/
theorem rowMax_bcast_apply (v : FVec Ideal S5000x32 .f32) (h : S5000x32.Reduces [1] S5000) (hφ : FKind.Formats .f32)
    (hacc : (0xFF800000#32 : BitVec 32) = FKind.maximumf.neutral .f32 hφ)
    (hc : S5000.ShapeCasts S5000x1) (hb : S5000x1.Broadcasts S5000x32) (p : Fin 5000) (q : Fin 32) :
    broadcastTo S5000x32 (shapeCast S5000x1 (multiReduction (F := Ideal) .maximumf [1] S5000 v 0xFF800000#32 h hφ hacc) hc) hb (ix2 p q)
      = (Finset.univ : Finset (Fin 32)).fold max ⊥ (fun k => v (ix2 p k)) := by
  refine (Cert.ColumnBroadcast.broadcastTo_a1_ab_apply _ hb p q).trans ?_
  refine (Cert.KeepdimsSum.shapeCast_a_a1_apply _ hc p 0).trans ?_
  refine (Ideal.multiReduction_maximumf_single v _ h hφ hacc (ix1 p)).trans ?_
  rw [Ideal.ofBits_def, ofBits_negInf]
  refine Finset.fold_congr fun k _ => congrArg v (funext fun c => Fin.ext ?_)
  match c with
  | ⟨0, _⟩ => rfl
  | ⟨1, _⟩ => rfl

/-- The log of the row sum, kept as a column and broadcast back, at (p, q). -/
theorem logRowSum_bcast_apply (v : FVec Ideal S5000x32 .f32) (h : S5000x32.Reduces [1] S5000) (hφ : FKind.Formats .f32)
    (hacc : (0x00000000#32 : BitVec 32) = FKind.add.neutral .f32 hφ)
    (hc : S5000.ShapeCasts S5000x1) (hb : S5000x1.Broadcasts S5000x32) (p : Fin 5000) (q : Fin 32) :
    broadcastTo S5000x32 (log (F := Ideal) (shapeCast S5000x1 (multiReduction (F := Ideal) .add [1] S5000 v 0x00000000#32 h hφ hacc) hc)) hb (ix2 p q)
      = Ideal.log (∑ k : Fin 32, v (ix2 p k)) := by
  refine (Cert.ColumnBroadcast.broadcastTo_a1_ab_apply _ hb p q).trans ?_
  show Ideal.log (shapeCast S5000x1 _ hc (ix2 p (0 : Fin 1))) = _
  exact congrArg Ideal.log (Cert.KeepdimsSum.rowSum_column_apply v h hφ hacc hc p 0)

/-- THE PAYLOAD AT AN INDEX: the log-softmax of row p's logits at column q. -/
theorem pay_apply (x0 : Vec Ideal S5000x32 .f32) (x1 : Vec Ideal S1x32 .f32) (p : Fin 5000) (q : Fin 32) :
    k3_pay1 x0 x1 (ix2 p q) = Cert.Gcn.logSoftmaxRow (blockLogits x0 x1 p) q := by
  unfold k3_pay1 Cert.Gcn.logSoftmaxRow
  show subf (F := Ideal) (subf _ _) _ (ix2 p q) = _
  rw [subf_apply, subf_apply]
  have hmax : ∀ k : Fin 32, _ = Cert.Gcn.rowMax (blockLogits x0 x1 p) := fun k =>
    (rowMax_bcast_apply _ reduces_S5000x32_S5000 (.inl rfl) rfl shapeCasts_S5000_S5000x1 broadcasts_S5000x1_S5000x32 p k).trans
      (Finset.fold_congr fun j _ => biased_apply x0 x1 p j)
  refine congrArg₂ (· - ·) (congrArg₂ (· - ·) (biased_apply x0 x1 p q) (hmax q)) ?_
  refine (logRowSum_bcast_apply _ reduces_S5000x32_S5000 (.inl rfl) rfl shapeCasts_S5000_S5000x1 broadcasts_S5000x1_S5000x32 p q).trans ?_
  refine congrArg Ideal.log (Finset.sum_congr rfl fun k _ => ?_)
  show Ideal.exp (subf (F := Ideal) _ _ (ix2 p k)) = _
  rw [subf_apply]
  exact congrArg Ideal.exp (congrArg₂ (· - ·) (biased_apply x0 x1 p k) (hmax k))

theorem zeros2 : (![0, 0] : Fin 2 → Nat) = fun _ => 0 := funext fun a => by fin_cases a <;> rfl

/-- The block index maps over the grid: point t's row block is block t, every column block is block 0, and the bias is its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

set_option maxHeartbeats 4000000 in
/-- Row p of point t's block of the logits array is row 5000 t + p of the array; the bias block is the bias. -/
theorem blockLogits_eq (c : Dev nD) (t : Fin cfg3.N) (p : Fin 5000) (r : Fin 100000) (hr : r.val = t.val * 5000 + p.val) :
    blockLogits (iblk3 V c 0 t) (iblk3 V c 1 t) p = Cert.Gcn.logits (V c main_v62) (V c main_v63) r := by
  obtain ⟨e0, e1, e2, e3, e4, e5⟩ := idx_facts t
  funext k
  unfold blockLogits Cert.Gcn.logits
  refine congrArg₂ (· + ·) ?_ ?_
  · unfold iblk3
    rw [View.read_apply]
    show V c main_v62 _ = V c main_v62 _
    refine congrArg (V c main_v62) (funext fun a => Fin.ext ?_)
    match a with
    | ⟨0, _⟩ => show win3_0.index t (0 : Fin 2) * 5000 + 1 * p.val = r.val; omega
    | ⟨1, _⟩ => show win3_0.index t (1 : Fin 2) * 32 + 1 * k.val = k.val; omega
  · unfold iblk3
    rw [View.read_apply]
    show V c main_v63 _ = V c main_v63 _
    refine congrArg (V c main_v63) (funext fun a => Fin.ext ?_)
    match a with
    | ⟨0, _⟩ => show win3_1.index t (0 : Fin 2) * 1 + 1 * 0 = 0; omega
    | ⟨1, _⟩ => show win3_1.index t (1 : Fin 2) * 32 + 1 * k.val = k.val; omega

set_option maxHeartbeats 4000000 in
/-- WHAT POINT t WRITES BACK is block t of the log-softmax of the biased array. -/
theorem flushed_eq (c : Dev nD) (t : Fin cfg3.N) :
    (dat3 (F := Ideal) V c).flushed 2 t
      = ((cfg3.win 2).blk t).view.read (Elt Ideal) (Cert.Gcn.biasLogSoftmax (V c main_v62) (V c main_v63)) := by
  show (cfg3.win 2).cut (grid3.coords t) ((dat3 V c).after 2 t) = _
  rw [after3_2]
  unfold out3_2
  rw [View.canon_unit_zero zeros2]
  simp only [View.ld_unit_zero (S := S5000x32) zeros2, View.ld_unit_zero (S := S1x32) zeros2]
  obtain ⟨e0, e1, e2, e3, e4, e5⟩ := idx_facts t
  funext j
  obtain ⟨p, q, rfl⟩ : ∃ (p : Fin 5000) (q : Fin 32), j = ix2 p q := ⟨j 0, j 1, eq_ix2 j⟩
  show k3_pay1 (iblk3 V c 0 t) (iblk3 V c 1 t) (ix2 p q)
    = Cert.Gcn.biasLogSoftmax (V c main_v62) (V c main_v63) (((cfg3.win 2).blk t).view.emb (ix2 p q))
  refine (pay_apply _ _ p q).trans ?_
  unfold Cert.Gcn.biasLogSoftmax
  have hrow : (Cert.Gcn.rowOf (((cfg3.win 2).blk t).view.emb (ix2 p q))).val = t.val * 5000 + p.val := by
    show win3_2.index t (0 : Fin 2) * 5000 + 1 * p.val = _; omega
  have hcol : Cert.Gcn.colOf (((cfg3.win 2).blk t).view.emb (ix2 p q)) = q :=
    Fin.ext (by show win3_2.index t (1 : Fin 2) * 32 + 1 * q.val = _; omega)
  rw [hcol, blockLogits_eq V c t p _ hrow]

/-- An index of the array is in point t's block iff each coordinate is in the block's range on its axis. -/
theorem mem_blk (t : Fin cfg3.N) (i : S100000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v64).slice (win3_2.rect t)).set ↔ _
  rw [View.set_slice_whole, Rect.mem_set_unit]
  exact Iff.rfl

/-- Every index is covered: row r lies in the block of point r / 5000 (20 blocks of 5000 rows are the 100000 rows). -/
theorem cover (i : S100000x32.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 32 := (i 1).isLt
  have ht : (i 0).val / 5000 < cfg3.N := by rw [hN]; omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 32 ≤ (i 1).val
      ∧ (i 1).val < win3_2.index ⟨(i 0).val / 5000, ht⟩ (1 : Fin 2) * 32 + 32
    rw [e5]; omega

set_option maxHeartbeats 4000000 in
/-- THE ARRAY after the run: the log-softmax along the 32 columns of the logits array plus the bias row. -/
theorem final (c : Dev nD) :
    (dat3 (F := Ideal) V c).arrAt 2 cfg3.N = Cert.Gcn.biasLogSoftmax (V c main_v62) (V c main_v63) :=
  (dat3 V c).arrAt_eq_of_cover 2 (Cert.Gcn.biasLogSoftmax (V c main_v62) (V c main_v63))
    (fun t _ => flushed_eq V c t) cover

end

end Cert.Gcn.Region3

end
-- ==== Proof.KernelChain.lean ====
/-
  The idealized kernel's buffers followed from one segment boundary to the next: the host stretch before the first
  dense stage leaves the edge ends and the edge factors; each dense stage's output array is its function of its two
  input arrays (the four block-by-block closed forms); each host stretch between them is the named aggregation of
  the buffers it reads; a buffer that no later stretch or stage writes keeps its contents.  Composed, the result
  buffer at the last boundary holds `gcn` of the six argument arrays.
-/
import proofs.«153137_j63273458205287_1_alg».proof.Proof.KernelPrefix
import proofs.«153137_j63273458205287_1_alg».proof.Proof.Model
import proofs.«153137_j63273458205287_1_alg».proof.Proof.Region0
import proofs.«153137_j63273458205287_1_alg».proof.Proof.Region1
import proofs.«153137_j63273458205287_1_alg».proof.Proof.Region2
import proofs.«153137_j63273458205287_1_alg».proof.Proof.Region3

noncomputable section

namespace Cert.Gcn.KernelChain

open Cert.KernelIdeal Cert.KernelIdeal.Gen Idealize.ShloMosaic Idealize.ShloMosaic.TcCoe Idealize.SL.Sem Idealize.ShloMosaic.StableHlo
open Cert.Gcn.Chain
open Facts₀ Facts

variable (m : (ℓ : Loc nD τ sig) → Buf (Elt Ideal) ℓ) (ρ : Dev nD → PrngReg) (c : Dev nD)

/-- No operation of the stretch between the first two dense stages writes the reference. -/
macro "stretch1_keeps" : tactic => `(tactic| (
  refine List.forall_iff_forall_mem.mp ?_
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## At the first dense stage's entry -/

theorem W5_arg0 : W5 m ρ c (Proc.devRef .tc main_arg0) = m ((c : Thread nD τ).loc main_arg0) :=
  (congrFun (W5_flat m ρ c) _).trans (prefix_arg0 (W0 m ρ c))
theorem W5_arg2 : W5 m ρ c (Proc.devRef .tc main_arg2) = m ((c : Thread nD τ).loc main_arg2) :=
  (congrFun (W5_flat m ρ c) _).trans (prefix_arg2 (W0 m ρ c))
theorem W5_arg3 : W5 m ρ c (Proc.devRef .tc main_arg3) = m ((c : Thread nD τ).loc main_arg3) :=
  (congrFun (W5_flat m ρ c) _).trans (prefix_arg3 (W0 m ρ c))
theorem W5_arg4 : W5 m ρ c (Proc.devRef .tc main_arg4) = m ((c : Thread nD τ).loc main_arg4) :=
  (congrFun (W5_flat m ρ c) _).trans (prefix_arg4 (W0 m ρ c))
theorem W5_arg5 : W5 m ρ c (Proc.devRef .tc main_arg5) = m ((c : Thread nD τ).loc main_arg5) :=
  (congrFun (W5_flat m ρ c) _).trans (prefix_arg5 (W0 m ρ c))

set_option maxHeartbeats 4000000 in
theorem W5_v3 : W5 m ρ c (Proc.devRef .tc main_v3) = ends0 (F := Ideal) (m ((c : Thread nD τ).loc main_arg1)) :=
  (congrFun (W5_flat m ρ c) _).trans (prefix_v3 (W0 m ρ c))
set_option maxHeartbeats 4000000 in
theorem W5_v6 : W5 m ρ c (Proc.devRef .tc main_v6) = ends1 (F := Ideal) (m ((c : Thread nD τ).loc main_arg1)) :=
  (congrFun (W5_flat m ρ c) _).trans (prefix_v6 (W0 m ρ c))
set_option maxHeartbeats 4000000 in
theorem W5_v32 : W5 m ρ c (Proc.devRef .tc main_v32) = norm (F := Ideal) (ends0 (F := Ideal) (m ((c : Thread nD τ).loc main_arg1))) (ends1 (F := Ideal) (m ((c : Thread nD τ).loc main_arg1))) :=
  (congrFun (W5_flat m ρ c) _).trans (prefix_v32 (W0 m ρ c))

/-! ## A buffer nothing later writes keeps what it held at the first dense stage's entry -/

theorem keep6 (b : Ref sig .tc) (h0 : ∀ w, Pipeline.arrRef spec0 w ≠ b) :
    W6 m ρ c (Proc.devRef .tc b) = W5 m ρ c (Proc.devRef .tc b) := W6_of_ne m ρ c b h0
theorem keep7 (b : Ref sig .tc) (h0 : ∀ w, Pipeline.arrRef spec0 w ≠ b)
    (h1 : ∀ op ∈ (hostOps1 : List (HloOp τ sig (Elt Ideal))), (Proc.devRef .tc b : DevRef τ sig) ∉ op.writes) :
    W7 m ρ c (Proc.devRef .tc b) = W5 m ρ c (Proc.devRef .tc b) :=
  (after_of_forall_not_mem hostOps1 (W6 m ρ c) h1).trans (keep6 m ρ c b h0)
theorem keep8 (b : Ref sig .tc) (h0 : ∀ w, Pipeline.arrRef spec0 w ≠ b)
    (h1 : ∀ op ∈ (hostOps1 : List (HloOp τ sig (Elt Ideal))), (Proc.devRef .tc b : DevRef τ sig) ∉ op.writes)
    (h2 : ∀ w, Pipeline.arrRef spec1 w ≠ b) :
    W8 m ρ c (Proc.devRef .tc b) = W5 m ρ c (Proc.devRef .tc b) :=
  (W8_of_ne m ρ c b h2).trans (keep7 m ρ c b h0 h1)
theorem keep9 (b : Ref sig .tc) (h0 : ∀ w, Pipeline.arrRef spec0 w ≠ b)
    (h1 : ∀ op ∈ (hostOps1 : List (HloOp τ sig (Elt Ideal))), (Proc.devRef .tc b : DevRef τ sig) ∉ op.writes)
    (h2 : ∀ w, Pipeline.arrRef spec1 w ≠ b) (h3 : ∀ w, Pipeline.arrRef spec2 w ≠ b) :
    W9 m ρ c (Proc.devRef .tc b) = W5 m ρ c (Proc.devRef .tc b) :=
  (W9_of_ne m ρ c b h3).trans (keep8 m ρ c b h0 h1 h2)

/-! ## The first dense stage: x · W1 -/

set_option maxHeartbeats 4000000 in
theorem W6_v33 : W6 m ρ c (Proc.devRef .tc main_v33) = dense1 (m ((c : Thread nD τ).loc main_arg0)) (m ((c : Thread nD τ).loc main_arg2)) :=
  (W6_arr m ρ c 2).trans ((Region0.final (V5 m ρ) c).trans (congrArg₂ dense1 (W5_arg0 m ρ c) (W5_arg2 m ρ c)))

/-! ## The stretch to the second stage: the first aggregation and the bias row -/

set_option maxHeartbeats 8000000 in
theorem stretch1_v46 (X : Valuation τ sig (Elt Ideal)) : after hostOps1 X (Proc.devRef .tc main_v46)
    = agg64 (F := Ideal) (X (Proc.devRef .tc main_v3)) (X (Proc.devRef .tc main_v6)) (X (Proc.devRef .tc main_v32)) (X (Proc.devRef .tc main_v33)) := by
  dsimp only [hostOps1]
  after_results
  rfl

set_option maxHeartbeats 8000000 in
theorem stretch1_v47 (X : Valuation τ sig (Elt Ideal)) : after hostOps1 X (Proc.devRef .tc main_v47)
    = shapeCast S1x64 (X (Proc.devRef .tc main_arg3)) Facts₀.shapeCasts_S64_S1x64 := by
  dsimp only [hostOps1]
  after_results
  rfl

set_option maxHeartbeats 8000000 in
theorem W7_v46 : W7 m ρ c (Proc.devRef .tc main_v46) = agg64 (F := Ideal) (ends0 (F := Ideal) (m ((c : Thread nD τ).loc main_arg1))) (ends1 (F := Ideal) (m ((c : Thread nD τ).loc main_arg1))) (norm (F := Ideal) (ends0 (F := Ideal) (m ((c : Thread nD τ).loc main_arg1))) (ends1 (F := Ideal) (m ((c : Thread nD τ).loc main_arg1)))) (dense1 (m ((c : Thread nD τ).loc main_arg0)) (m ((c : Thread nD τ).loc main_arg2))) := by
  refine (stretch1_v46 (W6 m ρ c)).trans ?_
  rw [keep6 m ρ c main_v3 (by decide), keep6 m ρ c main_v6 (by decide), keep6 m ρ c main_v32 (by decide),
    W5_v3, W5_v6, W5_v32, W6_v33]

set_option maxHeartbeats 8000000 in
theorem W7_v47 : W7 m ρ c (Proc.devRef .tc main_v47) = shapeCast S1x64 (m ((c : Thread nD τ).loc main_arg3)) Facts₀.shapeCasts_S64_S1x64 := by
  refine (stretch1_v47 (W6 m ρ c)).trans ?_
  rw [keep6 m ρ c main_arg3 (by decide), W5_arg3]

/-! ## The second and third dense stages: bias + relu, then · W2 -/

set_option maxHeartbeats 8000000 in
theorem W8_v48 : W8 m ρ c (Proc.devRef .tc main_v48) = biasRelu (agg64 (F := Ideal) (ends0 (F := Ideal) (m ((c : Thread nD τ).loc main_arg1))) (ends1 (F := Ideal) (m ((c : Thread nD τ).loc main_arg1))) (norm (F := Ideal) (ends0 (F := Ideal) (m ((c : Thread nD τ).loc main_arg1))) (ends1 (F := Ideal) (m ((c : Thread nD τ).loc main_arg1)))) (dense1 (m ((c : Thread nD τ).loc main_arg0)) (m ((c : Thread nD τ).loc main_arg2)))) (shapeCast S1x64 (m ((c : Thread nD τ).loc main_arg3)) Facts₀.shapeCasts_S64_S1x64) :=
  (W8_arr m ρ c 2).trans ((Region1.final (V7 m ρ) c).trans (congrArg₂ biasRelu (W7_v46 m ρ c) (W7_v47 m ρ c)))

set_option maxHeartbeats 8000000 in
theorem W9_v49 : W9 m ρ c (Proc.devRef .tc main_v49) = dense2 (biasRelu (agg64 (F := Ideal) (ends0 (F := Ideal) (m ((c : Thread nD τ).loc main_arg1))) (ends1 (F := Ideal) (m ((c : Thread nD τ).loc main_arg1))) (norm (F := Ideal) (ends0 (F := Ideal) (m ((c : Thread nD τ).loc main_arg1))) (ends1 (F := Ideal) (m ((c : Thread nD τ).loc main_arg1)))) (dense1 (m ((c : Thread nD τ).loc main_arg0)) (m ((c : Thread nD τ).loc main_arg2)))) (shapeCast S1x64 (m ((c : Thread nD τ).loc main_arg3)) Facts₀.shapeCasts_S64_S1x64)) (m ((c : Thread nD τ).loc main_arg4)) :=
  (W9_arr m ρ c 2).trans ((Region2.final (V8 m ρ) c).trans (congrArg₂ dense2 (W8_v48 m ρ c)
    ((keep8 m ρ c main_arg4 (by decide) (by stretch1_keeps) (by decide)).trans (W5_arg4 m ρ c))))

/-! ## The stretch to the last stage: the second aggregation and the bias row -/

set_option maxHeartbeats 8000000 in
theorem stretch3_v62 (X : Valuation τ sig (Elt Ideal)) : after hostOps3 X (Proc.devRef .tc main_v62)
    = agg32 (F := Ideal) (X (Proc.devRef .tc main_v3)) (X (Proc.devRef .tc main_v6)) (X (Proc.devRef .tc main_v32)) (X (Proc.devRef .tc main_v49)) := by
  dsimp only [hostOps3]
  after_results
  rfl

set_option maxHeartbeats 8000000 in
theorem stretch3_v63 (X : Valuation τ sig (Elt Ideal)) : after hostOps3 X (Proc.devRef .tc main_v63)
    = shapeCast S1x32 (X (Proc.devRef .tc main_arg5)) Facts₀.shapeCasts_S32_S1x32 := by
  dsimp only [hostOps3]
  after_results
  rfl

set_option maxHeartbeats 16000000 in
theorem W10_v62 : W10 m ρ c (Proc.devRef .tc main_v62) = agg32 (F := Ideal) (ends0 (F := Ideal) (m ((c : Thread nD τ).loc main_arg1))) (ends1 (F := Ideal) (m ((c : Thread nD τ).loc main_arg1))) (norm (F := Ideal) (ends0 (F := Ideal) (m ((c : Thread nD τ).loc main_arg1))) (ends1 (F := Ideal) (m ((c : Thread nD τ).loc main_arg1)))) (dense2 (biasRelu (agg64 (F := Ideal) (ends0 (F := Ideal) (m ((c : Thread nD τ).loc main_arg1))) (ends1 (F := Ideal) (m ((c : Thread nD τ).loc main_arg1))) (norm (F := Ideal) (ends0 (F := Ideal) (m ((c : Thread nD τ).loc main_arg1))) (ends1 (F := Ideal) (m ((c : Thread nD τ).loc main_arg1)))) (dense1 (m ((c : Thread nD τ).loc main_arg0)) (m ((c : Thread nD τ).loc main_arg2)))) (shapeCast S1x64 (m ((c : Thread nD τ).loc main_arg3)) Facts₀.shapeCasts_S64_S1x64)) (m ((c : Thread nD τ).loc main_arg4))) := by
  refine (stretch3_v62 (W9 m ρ c)).trans ?_
  rw [keep9 m ρ c main_v3 (by decide) (by stretch1_keeps) (by decide) (by decide),
    keep9 m ρ c main_v6 (by decide) (by stretch1_keeps) (by decide) (by decide),
    keep9 m ρ c main_v32 (by decide) (by stretch1_keeps) (by decide) (by decide),
    W5_v3, W5_v6, W5_v32, W9_v49]

set_option maxHeartbeats 8000000 in
theorem W10_v63 : W10 m ρ c (Proc.devRef .tc main_v63) = shapeCast S1x32 (m ((c : Thread nD τ).loc main_arg5)) Facts₀.shapeCasts_S32_S1x32 := by
  refine (stretch3_v63 (W9 m ρ c)).trans ?_
  rw [keep9 m ρ c main_arg5 (by decide) (by stretch1_keeps) (by decide) (by decide), W5_arg5]

/-! ## The last dense stage, and the result -/

set_option maxHeartbeats 16000000 in
/-- The result buffer at the last segment boundary holds the network's function of the six argument arrays. -/
theorem result : W11 m ρ c (Proc.devRef .tc main_v64) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W11_arr m ρ c 2).trans ((Region3.final (V10 m ρ) c).trans (congrArg₂ biasLogSoftmax (W10_v62 m ρ c) (W10_v63 m ρ c)))

end Cert.Gcn.KernelChain

end
-- ==== Proof.RefChain.lean ====
/-
  The reference's host stretches are the named ones: its edge ends are `ends0` / `ends1` of the edge list, each of
  its two copies of the edge factors is `norm` of them, and its two aggregations are `agg64` / `agg32` of its two
  matrix products.  Each equation only unfolds the reference's stages down to those products; the two programs'
  shape records of the same operation carry the same numbers.
-/
import proofs.«153137_j63273458205287_1_alg».proof.Proof.RefReadPatched
import proofs.«153137_j63273458205287_1_alg».proof.Proof.HostChains
import proofs.«153137_j63273458205287_1_alg».proof.Proof.Gen.KernelIdeal

noncomputable section

namespace Cert.Gcn.RefChain

open Cert.ReferenceIdeal Cert.ReferenceIdeal.Read Idealize.ShloMosaic
open Cert.Gcn.Chain

/-- The edges' first ends. -/
theorem ends0_eq (x1 : (⟨S2x1600000, .i32⟩ : BufTy).Contents (Elt Ideal)) : val_main_v3 (F := Ideal) x1 = ends0 x1 := by
  simp only [val_main_v3, val_main_v2, val_main_v1, val_main_v0]
  rfl

/-- The edges' second ends. -/
theorem ends1_eq (x1 : (⟨S2x1600000, .i32⟩ : BufTy).Contents (Elt Ideal)) : val_main_v6 (F := Ideal) x1 = ends1 x1 := by
  simp only [val_main_v6, val_main_v5, val_main_v4, val_main_v0]
  rfl

set_option maxHeartbeats 8000000 in
/-- The first layer's edge factors. -/
theorem norm1_eq (x1 : (⟨S2x1600000, .i32⟩ : BufTy).Contents (Elt Ideal)) : val_main_v33 (F := Ideal) x1 = norm (ends0 x1) (ends1 x1) := by
  simp only [
    val_main_cst, val_main_v8, val_main_cst_0, val_main_v9, val_main_v10, val_main_v11, val_main_cst_1, val_main_v12,
    val_main_v13, val_main_cst_2, val_main_v14, val_main_v15, val_main_cst_3, val_main_call0_v0, val_main_call0_v1,
    val_main_v16, val_main_v17, val_main_cst_4, val_main_call1_v0, val_main_call1_v1, val_main_v18, val_main_c,
    val_main_v19, val_main_v20, val_main_c_5, val_main_v21, val_main_v22, val_main_v23, val_main_v24, val_main_v25,
    val_main_c_6, val_main_v26, val_main_v27, val_main_c_7, val_main_v28, val_main_v29, val_main_v30, val_main_v31,
    val_main_v32, val_main_v33]
  rw [ends0_eq, ends1_eq]
  rfl

set_option maxHeartbeats 8000000 in
/-- The second layer's edge factors: the same function of the edge list. -/
theorem norm2_eq (x1 : (⟨S2x1600000, .i32⟩ : BufTy).Contents (Elt Ideal)) : val_main_v77 (F := Ideal) x1 = norm (ends0 x1) (ends1 x1) := by
  simp only [
    val_main_cst_11, val_main_v52, val_main_cst_12, val_main_v53, val_main_v54, val_main_v55, val_main_cst_13,
    val_main_v56, val_main_v57, val_main_cst_14, val_main_v58, val_main_v59, val_main_cst_15, val_main_call3_v0,
    val_main_call3_v1, val_main_v60, val_main_v61, val_main_cst_16, val_main_call4_v0, val_main_call4_v1,
    val_main_v62, val_main_c_17, val_main_v63, val_main_v64, val_main_c_18, val_main_v65, val_main_v66, val_main_v67,
    val_main_v68, val_main_v69, val_main_c_19, val_main_v70, val_main_v71, val_main_c_20, val_main_v72, val_main_v73,
    val_main_v74, val_main_v75, val_main_v76, val_main_v77]
  rw [ends0_eq, ends1_eq]
  rfl

set_option maxHeartbeats 8000000 in
/-- The first layer's aggregation, of the first matrix product. -/
theorem agg64_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) :
    val_main_v46 (F := Ideal) x0 x1 x2 = agg64 (ends0 x1) (ends1 x1) (norm (ends0 x1) (ends1 x1)) (val_main_v7 (F := Ideal) x0 x2) := by
  simp only [
    val_main_c_8, val_main_v34, val_main_v35, val_main_c_9, val_main_v36, val_main_v37, val_main_v38, val_main_v39,
    val_main_v40, val_main_v41, val_main_v42, val_main_v43, val_main_cst_10, val_main_v44, val_main_v45, val_main_v46]
  rw [ends0_eq, ends1_eq, norm1_eq]
  rfl

set_option maxHeartbeats 8000000 in
/-- The second layer's aggregation, of the second matrix product. -/
theorem agg32_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) :
    val_main_v90 (F := Ideal) x0 x1 x2 x3 x4
      = agg32 (ends0 x1) (ends1 x1) (norm (ends0 x1) (ends1 x1)) (val_main_v51 (F := Ideal) x0 x1 x2 x3 x4) := by
  simp only [
    val_main_c_21, val_main_v78, val_main_v79, val_main_c_22, val_main_v80, val_main_v81, val_main_v82, val_main_v83,
    val_main_v84, val_main_v85, val_main_v86, val_main_v87, val_main_cst_23, val_main_v88, val_main_v89, val_main_v90]
  rw [ends0_eq, ends1_eq, norm2_eq]
  rfl

end Cert.Gcn.RefChain

end
-- ==== Proof.RefDense.lean ====
/-
  The plain program's two dense stages are `Cert.Gcn.dense1` and `Cert.Gcn.dense2`.

  The plain program multiplies an [N, K] array x by a [K, J] array w by contracting x's axis 1 with w's axis 0.
  Over the extended reals the entry (r, j) of the product is the sum over k < K of x[r, k] · w[k, j]: the left
  operand is read at row r of the result's index and column k, the right operand at row k and column j of the
  result's index.  That is the specification's sum, term by term: (K, J) = (128, 64) for the first stage on the
  node features, and (64, 32) for the second on the rectified hidden rows.
-/
import proofs.«153137_j63273458205287_1_alg».proof.Proof.RefReadPatched
import proofs.«153137_j63273458205287_1_alg».proof.Proof.Spec
import Idealize.ShloMosaic.Lib.ValueIdx
import Idealize.ShloMosaic.PureOps.Ideal.Laws

noncomputable section

namespace Cert.Gcn.RefDense

open Cert.ReferenceIdeal Cert.ReferenceIdeal.Read
open Idealize.ShloMosaic Idealize.ShloMosaic.TcCoe Idealize.SL.Sem
open Idealize.ShloMosaic.ValueIdx
open scoped BigOperators

/-- First stage, left operand: term k of entry (r, j) reads x at (r, k). -/
theorem lhs1_index (i : S100000x64.Idx) (k : Fin 128) : lidx_main_v7 i k = ix2 (rowOf i) k :=
  funext fun a => Fin.ext (by match a with | ⟨0, _⟩ => rfl | ⟨1, _⟩ => rfl)

/-- First stage, right operand: term k of entry (r, j) reads w at (k, j). -/
theorem rhs1_index (i : S100000x64.Idx) (k : Fin 128) : ridx_main_v7 i k = ix2 k (colOf i) :=
  funext fun a => Fin.ext (by match a with | ⟨0, _⟩ => rfl | ⟨1, _⟩ => rfl)

/-- (x · w)[r, j] = ∑ₖ x[r, k] · w[k, j], 128 terms. -/
theorem dense1_eq (x0 : (⟨S100000x128, .f32⟩ : BufTy).Contents (Elt Ideal)) (x2 : (⟨S128x64, .f32⟩ : BufTy).Contents (Elt Ideal)) :
    val_main_v7 (F := Ideal) x0 x2 = Cert.Gcn.dense1 x0 x2 := by
  funext i
  rw [val_main_v7_apply]
  unfold Cert.Gcn.dense1
  exact Finset.sum_congr rfl fun k _ => by rw [lhs1_index, rhs1_index]

/-- Second stage, left operand: term k of entry (r, j) reads the hidden rows at (r, k). -/
theorem lhs2_index (i : S100000x32.Idx) (k : Fin 64) : lidx_main_v51 i k = ix2 (rowOf i) k :=
  funext fun a => Fin.ext (by match a with | ⟨0, _⟩ => rfl | ⟨1, _⟩ => rfl)

/-- Second stage, right operand: term k of entry (r, j) reads w at (k, j). -/
theorem rhs2_index (i : S100000x32.Idx) (k : Fin 64) : ridx_main_v51 i k = ix2 k (colOf i) :=
  funext fun a => Fin.ext (by match a with | ⟨0, _⟩ => rfl | ⟨1, _⟩ => rfl)

/-- (h · w)[r, j] = ∑ₖ h[r, k] · w[k, j], 64 terms, h the rectified hidden rows. -/
theorem dense2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) :
    val_main_v51 (F := Ideal) x0 x1 x2 x3 x4 = Cert.Gcn.dense2 (val_main_v50 (F := Ideal) x0 x1 x2 x3) x4 := by
  funext i
  rw [val_main_v51_apply]
  unfold Cert.Gcn.dense2
  exact Finset.sum_congr rfl fun k _ => by rw [lhs2_index, rhs2_index]

end Cert.Gcn.RefDense

end
-- ==== Proof.RefBiasRelu.lean ====
/-
  The plain program's bias and rectification stage is `Cert.Gcn.biasRelu`.

  The plain program adds the bias to an [100000, 64] array a by first making the bias vector b (64 entries) a
  [1, 64] row, then repeating that row down the 100000 rows, adding entry by entry, and taking the maximum with an
  array filled with the constant 0.  Read at an index (r, q) this is
      max (a[r, q] + b[q]) 0.
  The specification carries the bias as a [1, 64] row whose entry (0, q) is b[q] (the vector with a leading unit
  axis added), so the two agree index by index.  The laws used: a repeated array read at an index is the operand
  at the index with the repeated axes dropped; sum and maximum are taken entry by entry; the all-zeros word is 0.
-/
import proofs.«153137_j63273458205287_1_alg».proof.Proof.RefReadPatched
import proofs.«153137_j63273458205287_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.RefBiasRelu

open Cert.ReferenceIdeal Cert.ReferenceIdeal.Read
open Idealize.ShloMosaic Idealize.ShloMosaic.TcCoe Idealize.SL.Sem
open Idealize.ShloMosaic.ValueIdx

/-- The two repetitions composed: index (r, q) of the [100000, 64] array reads the bias vector at q. -/
theorem bias_index (i : S100000x64.Idx) : idx_main_v47 (idx_main_v48 i) = ix1 (colOf i) :=
  funext fun a => Fin.ext (by match a with | ⟨0, _⟩ => rfl)

/-- The stage at every index (r, q): max (a[r, q] + b[q]) 0, where the specification reads b[q] as entry (0, q) of
    the bias vector cast to a [1, 64] row. -/
theorem biasRelu_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (h : (⟨1, ![64]⟩ : Shape).ShapeCasts Cert.Gcn.SB1) :
    val_main_v50 (F := Ideal) x0 x1 x2 x3
      = Cert.Gcn.biasRelu (val_main_v46 (F := Ideal) x0 x1 x2) (shapeCast Cert.Gcn.SB1 x3 h) := by
  funext i
  rw [val_main_v50_apply, val_main_v49_apply, val_main_v48_apply, val_main_v47_apply, val_main_call2_v0_apply,
    val_main_call2_cst_apply, bias_index]
  show max (val_main_v46 (F := Ideal) x0 x1 x2 i + x3 (ix1 (colOf i))) (Ideal.ofBits .f32 0x00000000#32)
      = max (val_main_v46 (F := Ideal) x0 x1 x2 i + shapeCast Cert.Gcn.SB1 x3 h (ix2 (0 : Fin 1) (colOf i))) 0
  rw [Ideal.ofBits_zero_f32, shapeCast_a_1a_apply]

end Cert.Gcn.RefBiasRelu

end
-- ==== Proof.RefLogSoftmax.lean ====
/-
  The reference's last stage, bias plus log-softmax along the 32 columns, read as the specification's function.

  The reference adds the bias [32], broadcast as a row to every one of the 100000 rows, to the aggregated array, and
  then takes the log-softmax of each row the usual stable way: the row maximum M as a reduction by max from -∞
  along the columns (and once more the maximum of -∞ and that, which changes nothing since max ⊥ x = x), the
  differences l k - M, the sum of their exponentials as a reduction by + from 0 along the columns (0 + s = s), its
  logarithm, and the result (l j - M) - log (∑ₖ exp (l k - M)).  Read at an index (r, j), every stage is the
  corresponding piece of `biasLogSoftmax` at row r: the biased entry is the logit l j of row r, the reduction by max
  is the fold of max from -∞ over the 32 logits of the row, and the reduction by + is their finite sum.
-/
import proofs.«153137_j63273458205287_1_alg».proof.Proof.RefReadPatched
import proofs.«153137_j63273458205287_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open Cert.ReferenceIdeal Cert.ReferenceIdeal.Gen Cert.ReferenceIdeal.Read Idealize.ShloMosaic Idealize.ShloMosaic.TcCoe Idealize.SL.Sem
open Idealize.ShloMosaic.ValueIdx
open scoped BigOperators

namespace Cert.Gcn.RefLogSoftmax

/-- The word 0xFF800000 denotes -∞. -/
theorem ofBits_negInf : Ideal.ofBits .f32 0xFF800000#32 = (⊥ : EReal) := by
  simp [Ideal.ofBits, Ideal.ieee]

/-- An index of an [N, 32] array is the pair of its row and its column. -/
theorem ix2_row_col (i : S100000x32.Idx) : ix2 (Cert.Gcn.rowOf i) (Cert.Gcn.colOf i) = i :=
  funext fun a => match a with
    | ⟨0, _⟩ => rfl
    | ⟨1, _⟩ => rfl

/-- The bias [32] broadcast to [N, 32], read at i, is the bias row [1, 32] at column (i 1). -/
theorem bias_apply (x5 : (⟨S32, .f32⟩ : BufTy).Contents (Elt Ideal)) (h : (⟨1, ![32]⟩ : Shape).ShapeCasts Cert.Gcn.SB2)
    (i : S100000x32.Idx) :
    val_main_v92 (F := Ideal) x5 i = shapeCast Cert.Gcn.SB2 x5 h (ix2 (0 : Fin 1) (Cert.Gcn.colOf i)) := by
  rw [val_main_v92_apply, val_main_v91_apply]
  refine (shapeCast_apply x5 h _ _ ?_).symm
  rw [Shape.rowMajor_val_two, Shape.rowMajor_val_one]
  show (i 1).val = 0 * 32 + (i 1).val
  omega

/-- A maximum along the 32 columns from -∞, read at row r: the fold of max from -∞ over the row. -/
theorem hostMax_apply (z : FVec Ideal S100000x32 .f32) (h' : S100000x32.ReducesTo [1] S100000)
    (h : S100000x32.Reduces [1] S100000) (hu : 0 < S_.numel) (r : Fin 100000) :
    Host.reduce (FloatOps.maximumf (F := Ideal) (φ := .f32)) z (constant (F := Ideal) S_ .f32 0xFF800000#32) h' hu (ix1 r)
      = (Finset.univ : Finset (Fin 32)).fold max ⊥ (fun k => z (ix2 r k)) := by
  refine (Host.reduce_eq_fold_single (FloatOps.maximumf (F := Ideal) (φ := .f32)) z _ h' h hu (ix1 r)).trans ?_
  rw [constant_apply, ofBits_negInf]
  refine Finset.fold_congr fun k _ => congrArg z (funext fun c => Fin.ext ?_)
  match c with
  | ⟨0, _⟩ => rfl
  | ⟨1, _⟩ => rfl

section
variable (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (h : (⟨1, ![32]⟩ : Shape).ShapeCasts Cert.Gcn.SB2)

/-- The reference's biased array at i is the logit of i's row at i's column. -/
theorem logits_apply (i : S100000x32.Idx) :
    val_main_v93 (F := Ideal) x0 x1 x2 x3 x4 x5 i
      = Cert.Gcn.logits (val_main_v90 (F := Ideal) x0 x1 x2 x3 x4) (shapeCast Cert.Gcn.SB2 x5 h) (Cert.Gcn.rowOf i) (Cert.Gcn.colOf i) := by
  rw [val_main_v93_apply, bias_apply x5 h i]
  generalize val_main_v90 (F := Ideal) x0 x1 x2 x3 x4 = y
  unfold Cert.Gcn.logits
  rw [ix2_row_col]
  rfl

/-- The reference's row maximum, broadcast back to [N, 32], at i: the maximum of the logits of i's row. -/
theorem max_apply (i : S100000x32.Idx) :
    val_main_call5_v4 (F := Ideal) x0 x1 x2 x3 x4 x5 i
      = Cert.Gcn.rowMax (Cert.Gcn.logits (val_main_v90 (F := Ideal) x0 x1 x2 x3 x4) (shapeCast Cert.Gcn.SB2 x5 h) (Cert.Gcn.rowOf i)) := by
  rw [val_main_call5_v4_apply, val_main_call5_v3_apply, val_main_call5_v2_apply, val_main_call5_v1_apply,
    val_main_call5_cst_0_apply]
  have hidx : idx_main_call5_v3 (idx_main_call5_v4 i) = ix1 (Cert.Gcn.rowOf i) :=
    funext fun a => match a with | ⟨0, _⟩ => rfl
  rw [hidx]
  unfold val_main_call5_v0 val_main_call5_cst
  have hz : ∀ j, val_main_v93 (F := Ideal) x0 x1 x2 x3 x4 x5 j = _ := logits_apply x0 x1 x2 x3 x4 x5 h
  generalize val_main_v93 (F := Ideal) x0 x1 x2 x3 x4 x5 = z at hz ⊢
  rw [hostMax_apply z reducesTo_S100000x32_S100000_d1 (by decide) h_S_ (Cert.Gcn.rowOf i), Ideal.maximumf_def,
    Ideal.ofBits_def, ofBits_negInf, max_bot_left]
  unfold Cert.Gcn.rowMax
  refine Finset.fold_congr fun k _ => ?_
  rw [hz]

/-- The reference's log-softmax of the biased rows is the specification's. -/
theorem logSoftmax_eq :
    val_main_v94 (F := Ideal) x0 x1 x2 x3 x4 x5 = Cert.Gcn.biasLogSoftmax (val_main_v90 (F := Ideal) x0 x1 x2 x3 x4) (shapeCast Cert.Gcn.SB2 x5 h) := by
  funext i
  have hd : ∀ j, val_main_call5_v5 (F := Ideal) x0 x1 x2 x3 x4 x5 j
      = Cert.Gcn.logits (val_main_v90 (F := Ideal) x0 x1 x2 x3 x4) (shapeCast Cert.Gcn.SB2 x5 h) (Cert.Gcn.rowOf j) (Cert.Gcn.colOf j)
        - Cert.Gcn.rowMax (Cert.Gcn.logits (val_main_v90 (F := Ideal) x0 x1 x2 x3 x4) (shapeCast Cert.Gcn.SB2 x5 h) (Cert.Gcn.rowOf j)) := fun j => by
    rw [val_main_call5_v5_apply, Ideal.subf_def, logits_apply x0 x1 x2 x3 x4 x5 h, max_apply x0 x1 x2 x3 x4 x5 h]
  rw [val_main_v94_apply, Ideal.subf_def, hd, val_main_call5_v10_apply, val_main_call5_v9_apply, Ideal.hostUnary_log_def,
    val_main_call5_v8_apply, val_main_call5_v7_apply, val_main_call5_cst_1_apply, Ideal.ofBits_def, Ideal.ofBits_zero_f32,
    zero_add]
  have hs : ∑ k : Fin 32, val_main_call5_v6 (F := Ideal) x0 x1 x2 x3 x4 x5 (idx_main_call5_v7 (idx_main_call5_v8 (idx_main_call5_v10 i)) k)
      = ∑ k : Fin 32, Ideal.exp (Cert.Gcn.logits (val_main_v90 (F := Ideal) x0 x1 x2 x3 x4) (shapeCast Cert.Gcn.SB2 x5 h) (Cert.Gcn.rowOf i) k
          - Cert.Gcn.rowMax (Cert.Gcn.logits (val_main_v90 (F := Ideal) x0 x1 x2 x3 x4) (shapeCast Cert.Gcn.SB2 x5 h) (Cert.Gcn.rowOf i))) :=
    Finset.sum_congr rfl fun k _ => by
      rw [val_main_call5_v6_apply, Ideal.hostUnary_exp_def, hd]
  rw [hs]
  generalize val_main_v90 (F := Ideal) x0 x1 x2 x3 x4 = y
  rfl

end

end Cert.Gcn.RefLogSoftmax

end
-- ==== Proof.RefModel.lean ====
/-
  The reference's result stage is the network's function `gcn` of the six argument arrays: its log-softmax of the
  second aggregation plus bias, its second aggregation of the second matrix product, that product of its relu of
  the first aggregation plus bias, its first aggregation of the first matrix product — each stage one of the
  specification's functions, composed.
-/
import proofs.«153137_j63273458205287_1_alg».proof.Proof.RefChain
import proofs.«153137_j63273458205287_1_alg».proof.Proof.RefDense
import proofs.«153137_j63273458205287_1_alg».proof.Proof.RefBiasRelu
import proofs.«153137_j63273458205287_1_alg».proof.Proof.RefLogSoftmax
import proofs.«153137_j63273458205287_1_alg».proof.Proof.Model

noncomputable section

namespace Cert.Gcn.RefModel

open Cert.ReferenceIdeal Cert.ReferenceIdeal.Read Idealize.ShloMosaic

set_option maxHeartbeats 8000000 in
/-- The reference's result is `gcn` of its arguments. -/
theorem result (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) :
    val_main_v94 (F := Ideal) x0 x1 x2 x3 x4 x5 = Cert.Gcn.gcn x0 x1 x2 x3 x4 x5 := by
  rw [RefLogSoftmax.logSoftmax_eq x0 x1 x2 x3 x4 x5 Cert.KernelIdeal.Facts₀.shapeCasts_S32_S1x32, RefChain.agg32_eq,
    RefDense.dense2_eq, RefBiasRelu.biasRelu_eq x0 x1 x2 x3 Cert.KernelIdeal.Facts₀.shapeCasts_S64_S1x64,
    RefChain.agg64_eq, RefDense.dense1_eq]
  rfl

end Cert.Gcn.RefModel

end
-- ==== Proof.lean ====
/-
  A two-layer graph convolution over N = 100000 nodes and 1600000 edges plus the self loops: the kernel program
  computes the two matrix products, the bias + relu and the bias + log-softmax in four grids of 20 row blocks of
  5000 rows, with the gather / scale / scatter-add aggregations between them on the host; the reference computes
  the same network in plain array operations.  Over the extended reals both end with the array
      gcn x e W1 b1 W2 b2
        = biasLogSoftmax (agg32 r cl nr (dense2 (biasRelu (agg64 r cl nr (dense1 x W1)) b1) W2)) b2
  (Proof/Model.lean; r, cl the edge ends, nr the edge factors).  On the kernel's side each grid's output array is
  its stage's function of its input arrays, block by block (Proof/Region0 … Region3), and the host stretches between
  them are the named aggregations (Proof/KernelPrefix, Proof/KernelChain); on the reference's side each stage is the
  same function (Proof/RefDense, RefBiasRelu, RefLogSoftmax, RefChain, RefModel).  The laws used are only that a
  matrix product read at an index is the finite sum of products on both sides, that a row's maximum is the fold of
  max from -∞ on both sides, and 0 + s = s, max ⊥ s = s: nothing needs the inputs finite.
-/
import proofs.«153137_j63273458205287_1_alg».proof.Defs
import proofs.«153137_j63273458205287_1_alg».proof.Proof.Gen.Kernel
import proofs.«153137_j63273458205287_1_alg».proof.Proof.Gen.Kernel.Frame
import proofs.«153137_j63273458205287_1_alg».proof.Proof.Gen.KernelIdeal
import proofs.«153137_j63273458205287_1_alg».proof.Proof.Gen.KernelIdeal.Frame
import proofs.«153137_j63273458205287_1_alg».proof.Proof.Gen.ReferenceIdeal
import proofs.«153137_j63273458205287_1_alg».proof.Proof.Gen.Pre_finite_inputs
import proofs.«153137_j63273458205287_1_alg».proof.Proof.KernelRunPatched
import proofs.«153137_j63273458205287_1_alg».proof.Proof.KernelChain
import proofs.«153137_j63273458205287_1_alg».proof.Proof.RefModel
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

set_option maxHeartbeats 16000000 in
/-- Both programs, from memories agreeing on the arguments, end with `gcn` of the arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.KernelChain.result m ρ c), (h c).2⟩)
      (Cert.KernelIdeal.GenP.frame_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v94_eq, Cert.Gcn.RefModel.result,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
